-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S4096x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 15
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S4096x1024, .bf16⟩
  | .hbm, ⟨13, _⟩ => ⟨S4096x1024, .bf16⟩
  | .hbm, ⟨14, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | .local _ .vmem, ⟨23, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S4096x1024.size a
  hwx1_5 : ∀ i : grid1.Coords, EltTy.bits .bf16 = 32 ∨ (Rect.block (s := S4096x1024) S512x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S4096x1024.size a
  hwx1_6 : ∀ i : grid1.Coords, EltTy.bits .bf16 = 32 ∨ (Rect.block (s := S4096x1024) S512x1024.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .bf16 = 32 ∨ (Rect.block (s := S4096x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .bf16 = 32 ∨ (Rect.block (s := S4096x1024) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4_0) S512x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4_1) S512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_1) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x4096 : Shape := ⟨2, ![1024, 4096]⟩
abbrev S4096x4096 : Shape := ⟨2, ![4096, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1024x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KRun.lean ====
/-
  The kernel program's run, with the result buffer named.

  Every weakly fair execution of the three calls and the host operations between them terminates, nothing faulting,
  and in the final state every buffer that outlives the calls holds what the chain of segment boundaries leaves in it:
  in particular the result buffer holds the last boundary's contents of it, and the eight arguments are unchanged. The
  launch is the one the frame of this program makes; only the conclusion drawn from the last boundary is larger.
-/
import proofs.«133280_j18837726560765_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents of it, the arguments as launched. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Run

end
-- ==== Proof.LibDot.lean ====
/-
  Two reads at an index, for tables of any size.

  A matrix product. A product of an m × n table with an n × p table, as the dimension records of this certificate
  describe it (rows free on the left, columns free on the right, one contracted axis, no batch axis), sums over the
  positions of the contracted axis; entry (a, b) is  Σ_k l(a, k) · r(k, b)  with k running over `Fin n`. The sum
  over the record's own contraction index type is carried to `Fin n` along the bijection that reads its one
  coordinate.

  A vector along the rows. A vector b of n entries laid along each of m rows has entry b(j) at (r, j), whether it is
  laid by casting it to one row and repeating the row, or by placing it along axis 1 of a one-row table that is then
  repeated.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.Sage.LibDot

open Idealize.ShloMosaic Idealize.ShloMosaic.ValueIdx

/-- Entry (a, b) of a plain product as a sum over the contracted axis' positions `k : Fin n`: the record contracts one
    axis of extent n (`hr`, `hs`), its left index at output (a, b) and contraction position q is (a, q) and its
    right index (q, b) (`hl0` … `hr1`, coordinate by coordinate). -/
theorem sum_plain {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (l : (⟨2, ![m, n]⟩ : Shape).Idx → EReal) (r : (⟨2, ![n, p]⟩ : Shape).Idx → EReal) (a : Fin m) (b : Fin p) :
    ∑ k : d.contr.Idx, l (d.lhsIdx (ix2 a b) k) * r (d.rhsIdx (ix2 a b) k) = ∑ k : Fin n, l (ix2 a k) * r (ix2 k b) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 k b := funext fun x => Fin.ext (by
    match x with
    | ⟨0, _⟩ => exact (hr0 _ _).trans hk
    | ⟨1, _⟩ => exact hr1 _ _)
  rw [el, er]

variable {α : Type}

/-- A vector cast to one row and the row repeated down m rows: entry (r, j) is the vector's entry j. -/
theorem row_cast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (j : Fin n) :
    broadcastTo ⟨2, ![m, n]⟩ (shapeCast ⟨2, ![1, n]⟩ x h1) hb (ix2 r j) = x (ix1 j) := by
  have e1 := broadcastTo_apply (shapeCast ⟨2, ![1, n]⟩ x h1) hb (ix2 r j) (ix2 (0 : Fin 1) j) (by
    intro a
    match a with
    | ⟨0, _⟩ => rfl
    | ⟨1, _⟩ =>
      show j.val = if n = 1 then 0 else j.val
      split
      · have := j.isLt; omega
      · rfl)
  have e2 := shapeCast_apply x h1 (ix2 (0 : Fin 1) j) (ix1 j) (by
    rw [Shape.rowMajor_val_two, Shape.rowMajor_val_one]; show j.val = 0 * n + j.val; omega)
  exact e1.trans e2

/-- A vector placed along axis 1 of a one-row table and the table repeated down m rows: entry (r, j) is the vector's
    entry j. -/
theorem row_dims_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (r : Fin m) (j : Fin n) :
    broadcastInDim ⟨2, ![m, n]⟩ ![0, 1] hbc (broadcastInDim ⟨2, ![1, n]⟩ ![1] hd x) (ix2 r j) = x (ix1 j) := by
  rw [broadcastInDim_oneRow_apply]
  refine broadcastInDim_apply ![1] hd x (ix2 (0 : Fin 1) j) (ix1 j) ?_
  intro a
  match a with
  | ⟨0, _⟩ =>
    show j.val = if n = 1 then 0 else j.val
    split
    · have := j.isLt; omega
    · rfl

end Cert.Sage.LibDot

end
-- ==== Proof.LibDense.lean ====
/-
  One dense layer read at an entry.

  A dense layer sends a table x of m rows and n columns to  relu (x · w + b):  entry (a, j) of the result is
  max (Σ_k x(a, k) · w(k, j) + b(j)) 0,  the sum over the n columns of x (rows of w). Here the layer is spelt the way
  a vector unit computes one block of rows: both operands pass through a change of float format (the identity on
  the extended reals) and an identity re-shaping, the product accumulates into a zero table, the bias is a one-row
  table repeated down the rows, and the rectifier is the maximum with a table of zeros. The same value holds with
  no rectifier (lin_apply). No finiteness is assumed: only that zero is neutral for + and that the dimension
  record's contraction runs over the n positions of the shared axis.
-/
import Idealize.ShloMosaic.Lib.ValueIdx
import Idealize.ShloMosaic.Lib.ValueLayout
import Idealize.ShloMosaic.Lib.Pipeline.Value
import Idealize.ShloMosaic.PureOps.Ideal.Laws
import proofs.«133280_j18837726560765_2_alg».proof.Proof.LibDot

noncomputable section

open scoped BigOperators

namespace Cert.LibDense

open Idealize.ShloMosaic Idealize.ShloMosaic.ValueIdx

/-- A one-row table repeated down m rows: entry (a, j) is the row's entry j. -/
theorem row_apply {α : Type} {m p : Nat} (b : (⟨2, ![1, p]⟩ : Shape).Idx → α)
    (hb : (⟨2, ![1, p]⟩ : Shape).Broadcasts ⟨2, ![m, p]⟩) (a : Fin m) (j : Fin p) :
    broadcastTo ⟨2, ![m, p]⟩ b hb (ix2 a j) = b (ix2 (0 : Fin 1) j) := by
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- A one-row table repeated down m rows (after an identity re-shaping): entry (a, j) is the row's entry j. -/
theorem bias_apply {m p : Nat} (b : (⟨2, ![1, p]⟩ : Shape).Idx → EReal)
    (hc : (⟨2, ![1, p]⟩ : Shape).ShapeCasts ⟨2, ![1, p]⟩) (hb : (⟨2, ![1, p]⟩ : Shape).Broadcasts ⟨2, ![m, p]⟩)
    (a : Fin m) (j : Fin p) :
    broadcastTo ⟨2, ![m, p]⟩ (shapeCast ⟨2, ![1, p]⟩ b hc) hb (ix2 a j) = b (ix2 (0 : Fin 1) j) := by
  rw [shapeCast_self]
  refine broadcastTo_apply b hb (ix2 a j) (ix2 (0 : Fin 1) j) ?_
  intro x
  match x with
  | ⟨0, _⟩ => rfl
  | ⟨1, _⟩ =>
    show j.val = if p = 1 then 0 else j.val
    split
    · have := j.isLt; omega
    · rfl

/-- The linear part  x · w + b  of the layer at entry (a, j), the operands as they are. -/
theorem lin_core {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 x hbits) (truncf .bf16 w hbits) (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [addf_apply, bias_apply b hc hb a j]
  congr 1
  refine (Ideal.matmul_constant_zero_apply d none _ _ (ix2 a j)).trans ?_
  exact Cert.Sage.LibDot.sum_plain d hr hs hl0 hl1 hr0 hr1 (fun i => x i) (fun i => w i) a j

/-- The same with both operands passed through an identity re-shaping first. -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩) (hw : (⟨2, ![n, p]⟩ : Shape).ShapeCasts ⟨2, ![n, p]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 (shapeCast ⟨2, ![n, p]⟩ w hw) hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self, shapeCast_self]
  exact lin_core d hr hs hl0 hl1 hr0 hr1 x w b hc hb hbits a j

/-- The same with only the left operand passed through an identity re-shaping. -/
theorem lin_apply_x {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨2, ![1, p]⟩ .f32)
    (hx : (⟨2, ![m, n]⟩ : Shape).ShapeCasts ⟨2, ![m, n]⟩)
    (hc : (⟨2, ![1, p]⟩ : Shape).ShapeCasts ⟨2, ![1, p]⟩) (hb : (⟨2, ![1, p]⟩ : Shape).Broadcasts ⟨2, ![m, p]⟩)
    (hbits : FTy.bf16.bits < FTy.f32.bits) (a : Fin m) (j : Fin p) :
    addf (matmul d none (truncf .bf16 (shapeCast ⟨2, ![m, n]⟩ x hx) hbits) (truncf .bf16 w hbits)
        (constant (F := Ideal) ⟨2, ![m, p]⟩ .f32 0x00000000#32))
      (broadcastTo ⟨2, ![m, p]⟩ (shapeCast ⟨2, ![1, p]⟩ b hc) hb) (ix2 a j)
      = (∑ k : Fin n, x (ix2 a k) * w (ix2 k j)) + b (ix2 (0 : Fin 1) j) := by
  rw [shapeCast_self]
  exact lin_core d hr hs hl0 hl1 hr0 hr1 x w b hc hb hbits a j

end Cert.LibDense

end
-- ==== Proof.LibDotT.lean ====
/-
  A product against a transposed table, read at an entry.

  An m × n table times the transpose of a p × n table — the dimension record contracts axis 1 of BOTH operands, rows
  free on the left, rows free on the right, no batch axis — has entry (a, b) equal to  Σ_k l(a, k) · r(b, k),  k over
  `Fin n`. The sum over the record's own contraction index type is carried to `Fin n` along the bijection that reads
  its one coordinate. No finiteness is assumed.
-/
import Idealize.ShloMosaic.Lib.ValueIdx
import Idealize.ShloMosaic.PureOps.Ideal.Laws

noncomputable section

open scoped BigOperators

namespace Cert.LibDotT

open Idealize.ShloMosaic Idealize.ShloMosaic.ValueIdx

/-- Entry (a, b) of l · rᵀ as a sum over the shared axis' positions `k : Fin n`: the record contracts one axis of extent
    n (`hr`, `hs`); at output (a, b) and contraction position q its left index is (a, q) and its right index (b, q)
    (`hl0` … `hr1`, coordinate by coordinate). -/
theorem sum_nt {m n p : Nat} (d : DotDims ⟨2, ![m, n]⟩ ⟨2, ![p, n]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (i 1).val)
    (hr1 : ∀ (i : (⟨2, ![m, p]⟩ : Shape).Idx) (q : d.contr.Idx), (d.rhsIdx i q 1).val = (q ⟨0, by omega⟩).val)
    (l : (⟨2, ![m, n]⟩ : Shape).Idx → EReal) (r : (⟨2, ![p, n]⟩ : Shape).Idx → EReal) (a : Fin m) (b : Fin p) :
    ∑ k : d.contr.Idx, l (d.lhsIdx (ix2 a b) k) * r (d.rhsIdx (ix2 a b) k) = ∑ k : Fin n, l (ix2 a k) * r (ix2 b k) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 b k := funext fun x => Fin.ext (by
    match x with
    | ⟨0, _⟩ => exact hr0 _ _
    | ⟨1, _⟩ => exact (hr1 _ _).trans hk)
  rw [el, er]

end Cert.LibDotT

end
-- ==== Proof.KPay.lean ====
/-
  What the three kernel bodies store, read at an entry (on the extended reals).

  The two projection bodies store  x·w + b  of their blocks: entry (a, d) is  Σ_k x(a,k)·w(k,d) + b(0,d)  (the bias a
  one-row table). The attention body, on a block Qb of queries, a block Kb of keys, a block Vb of values and the
  running block acc, stores
      acc(a, c) + Σ_j σ((Σ_d Qb(a,d)·Kb(j,d)) · 2^-5) · Vb(j, c),
  and on the first key tile it first stores zeros. Changes of float format are the identity here, a product into a
  zero accumulator is the plain sum, and an identity re-shaping does nothing.
-/
import proofs.«133280_j18837726560765_2_alg».proof.Proof.Gen.KernelIdeal.Skeleton
import proofs.«133280_j18837726560765_2_alg».proof.Proof.LibDense
import proofs.«133280_j18837726560765_2_alg».proof.Proof.LibDotT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The dimension records' coordinates -/

/-- The 1024-row plain product. -/
abbrev dA := dot_S1024x1024_S1024x1024_S1024x1024_1_0_0_1_n_n
/-- The 512-row plain product. -/
abbrev dB := dot_S512x1024_S1024x1024_S512x1024_1_0_0_1_n_n
/-- The product against a transposed table. -/
abbrev dT := dot_S1024x1024_S1024x1024_S1024x1024_1_1_0_0_n_n

theorem dA_l0 (i : S1024x1024.Idx) (q : dA.contr.Idx) : (dA.lhsIdx i q 0).val = (i 0).val := by
  unfold DotDims.lhsIdx
  rw [dif_neg (show ¬(0 : Fin S1024x1024.rank) ∈ dA.lhsBatch by decide), dif_pos (show (0 : Fin S1024x1024.rank) ∈ dA.lhsNonContracting by decide)]
  rfl
theorem dA_l1 (i : S1024x1024.Idx) (q : dA.contr.Idx) : (dA.lhsIdx i q 1).val = (q ⟨0, by decide⟩).val :=
  dA.lhsIdx_val_of_single rfl i q
theorem dA_r0 (i : S1024x1024.Idx) (q : dA.contr.Idx) : (dA.rhsIdx i q 0).val = (q ⟨0, by decide⟩).val :=
  dA.rhsIdx_val_of_single rfl i q
theorem dA_r1 (i : S1024x1024.Idx) (q : dA.contr.Idx) : (dA.rhsIdx i q 1).val = (i 1).val := by
  unfold DotDims.rhsIdx
  rw [dif_neg (show ¬(1 : Fin S1024x1024.rank) ∈ dA.rhsBatch by decide), dif_pos (show (1 : Fin S1024x1024.rank) ∈ dA.rhsNonContracting by decide)]
  rfl

theorem dB_l0 (i : S512x1024.Idx) (q : dB.contr.Idx) : (dB.lhsIdx i q 0).val = (i 0).val := by
  unfold DotDims.lhsIdx
  rw [dif_neg (show ¬(0 : Fin S512x1024.rank) ∈ dB.lhsBatch by decide), dif_pos (show (0 : Fin S512x1024.rank) ∈ dB.lhsNonContracting by decide)]
  rfl
theorem dB_l1 (i : S512x1024.Idx) (q : dB.contr.Idx) : (dB.lhsIdx i q 1).val = (q ⟨0, by decide⟩).val :=
  dB.lhsIdx_val_of_single rfl i q
theorem dB_r0 (i : S512x1024.Idx) (q : dB.contr.Idx) : (dB.rhsIdx i q 0).val = (q ⟨0, by decide⟩).val :=
  dB.rhsIdx_val_of_single rfl i q
theorem dB_r1 (i : S512x1024.Idx) (q : dB.contr.Idx) : (dB.rhsIdx i q 1).val = (i 1).val := by
  unfold DotDims.rhsIdx
  rw [dif_neg (show ¬(1 : Fin S1024x1024.rank) ∈ dB.rhsBatch by decide), dif_pos (show (1 : Fin S1024x1024.rank) ∈ dB.rhsNonContracting by decide)]
  rfl

theorem dT_l0 (i : S1024x1024.Idx) (q : dT.contr.Idx) : (dT.lhsIdx i q 0).val = (i 0).val := by
  unfold DotDims.lhsIdx
  rw [dif_neg (show ¬(0 : Fin S1024x1024.rank) ∈ dT.lhsBatch by decide), dif_pos (show (0 : Fin S1024x1024.rank) ∈ dT.lhsNonContracting by decide)]
  rfl
theorem dT_l1 (i : S1024x1024.Idx) (q : dT.contr.Idx) : (dT.lhsIdx i q 1).val = (q ⟨0, by decide⟩).val :=
  dT.lhsIdx_val_of_single rfl i q
theorem dT_r0 (i : S1024x1024.Idx) (q : dT.contr.Idx) : (dT.rhsIdx i q 0).val = (i 1).val := by
  unfold DotDims.rhsIdx
  rw [dif_neg (show ¬(0 : Fin S1024x1024.rank) ∈ dT.rhsBatch by decide), dif_pos (show (0 : Fin S1024x1024.rank) ∈ dT.rhsNonContracting by decide)]
  rfl
theorem dT_r1 (i : S1024x1024.Idx) (q : dT.contr.Idx) : (dT.rhsIdx i q 1).val = (q ⟨0, by decide⟩).val :=
  dT.rhsIdx_val_of_single rfl i q

/-! ## The projection bodies -/

/-- The query projection's store at entry (a, d). -/
theorem proj_q (x0 x1 : FVec Ideal S1024x1024 .f32) (x2 : FVec Ideal S1x1024 .f32) (a d : Fin 1024) :
    k0_pay1 (F := Ideal) x0 x1 x2 (ix2 a d) = (∑ k : Fin 1024, x0 (ix2 a k) * x1 (ix2 k d)) + x2 (ix2 (0 : Fin 1) d) := by
  unfold k0_pay1
  exact Cert.LibDense.lin_core dA rfl rfl dA_l0 dA_l1 dA_r0 dA_r1 x0 x1 x2 _ _ _ a d

/-- The key projection's store at entry (a, d). -/
theorem proj_k (x0 : FVec Ideal S512x1024 .f32) (x1 : FVec Ideal S1024x1024 .f32) (x2 : FVec Ideal S1x1024 .f32)
    (a : Fin 512) (d : Fin 1024) :
    k1_pay2 (F := Ideal) x0 x1 x2 (ix2 a d) = (∑ k : Fin 1024, x0 (ix2 a k) * x1 (ix2 k d)) + x2 (ix2 (0 : Fin 1) d) := by
  unfold k1_pay2 k1_pay1
  exact Cert.LibDense.lin_core dB rfl rfl dB_l0 dB_l1 dB_r0 dB_r1 x0 x1 x2 _ _ _ a d

/-- The value projection's store at entry (a, d). -/
theorem proj_v (x0 : FVec Ideal S512x1024 .f32) (x1 : FVec Ideal S1024x1024 .f32) (x2 : FVec Ideal S1x1024 .f32)
    (a : Fin 512) (d : Fin 1024) :
    k1_pay3 (F := Ideal) x0 x1 x2 (ix2 a d) = (∑ k : Fin 1024, x0 (ix2 a k) * x1 (ix2 k d)) + x2 (ix2 (0 : Fin 1) d) := by
  unfold k1_pay3 k1_pay1
  exact Cert.LibDense.lin_core dB rfl rfl dB_l0 dB_l1 dB_r0 dB_r1 x0 x1 x2 _ _ _ a d

/-! ## The attention body -/

/-- The reset store: zeros. -/
theorem zero_apply (i : S1024x1024.Idx) : k2_pay1 (F := Ideal) i = 0 := by
  unfold k2_pay1
  exact Ideal.ofBits_zero_f32

/-- The weight the body gives key row j for query row a: the logistic function of the scaled inner product. -/
def wgt (x0 x1 : FVec Ideal S1024x1024 .bf16) (a j : Fin 1024) : EReal :=
  Ideal.logistic ((∑ d : Fin 1024, x0 (ix2 a d) * x1 (ix2 j d)) * Ideal.ofBits .f32 0x3D000000#32)

/-- The accumulating store at entry (a, c): the running block plus this key tile's weighted rows of values. -/
theorem attn_apply (x0 x1 : FVec Ideal S1024x1024 .bf16) (acc : FVec Ideal S1024x1024 .f32) (x2 : FVec Ideal S1024x1024 .bf16)
    (a c : Fin 1024) :
    k2_pay2 (F := Ideal) x0 x1 acc x2 (ix2 a c) = acc (ix2 a c) + ∑ j : Fin 1024, wgt x0 x1 a j * x2 (ix2 j c) := by
  unfold k2_pay2
  simp only [shapeCast_self]
  refine congrArg (acc (ix2 a c) + ·) ?_
  refine (Ideal.matmul_constant_zero_apply dA none _ _ (ix2 a c)).trans ?_
  refine (Cert.Sage.LibDot.sum_plain dA rfl rfl dA_l0 dA_l1 dA_r0 dA_r1 _ (fun i => x2 i) a c).trans ?_
  refine Finset.sum_congr rfl fun j _ => ?_
  refine congrArg (· * x2 (ix2 j c)) ?_
  show Ideal.logistic (FloatOps.matmul dT none x0 x1 (constant S1024x1024 .f32 0x00000000#32) (ix2 a j) * Ideal.ofBits .f32 0x3D000000#32) = _
  unfold wgt
  refine congrArg (fun s => Ideal.logistic (s * Ideal.ofBits .f32 0x3D000000#32)) ?_
  refine (Ideal.matmul_constant_zero_apply dT none x0 x1 (ix2 a j)).trans ?_
  exact Cert.LibDotT.sum_nt dT rfl rfl dT_l0 dT_l1 dT_r0 dT_r1 (fun i => x0 i) (fun i => x1 i) a j

end Cert.KernelIdeal.Pay

end
-- ==== Proof.Attn.lean ====
/-
  The function both programs compute: sigmoid-gated attention without normalisation.

  From tables q, x of 4096 rows and 1024 columns, three weight tables and three bias rows, form the projections
      Q = q·Wq + bq,   K = x·Wk + bk,   V = x·Wv + bv      (4096 × 1024 each),
  weigh row j of V for output row r by  σ((Σ_d Q(r,d)·K(j,d)) · 2^-5)  with σ(s) = 1/(1 + e^(-s)), and sum:
      out(r, c) = Σ_j σ((Σ_d Q(r,d)·K(j,d)) · 2^-5) · V(j, c),     j over all 4096 rows.
  All of it is read on the extended reals, where + and · are commutative and associative and 0 is neutral for +; no
  other law is used, so nothing here needs the entries to be finite.

  The 4096 rows j split into four tiles of 1024 consecutive rows; a sum over all rows is the four tile sums added in
  order onto 0 (sum_tiles, mix_tiles): re-grouping a finite sum in a commutative monoid.
-/
import Idealize.ShloMosaic.PureOps.Ideal
import Idealize.ShloMosaic.Lib.ValueIdx

noncomputable section

open scoped BigOperators

namespace Cert.Attn

open Idealize.ShloMosaic Idealize.ShloMosaic.ValueIdx

/-- Entry (r, d) of x·w + b, the bias a vector of 1024 entries. -/
def proj (x : (⟨2, ![4096, 1024]⟩ : Shape).Idx → EReal) (w : (⟨2, ![1024, 1024]⟩ : Shape).Idx → EReal)
    (b : (⟨1, ![1024]⟩ : Shape).Idx → EReal) (r : Fin 4096) (d : Fin 1024) : EReal :=
  (∑ k : Fin 1024, x (ix2 r k) * w (ix2 k d)) + b (ix1 d)

/-- The same entry with the bias given as a one-row table (how the kernel's windows hold it). -/
def projRow (x : (⟨2, ![4096, 1024]⟩ : Shape).Idx → EReal) (w : (⟨2, ![1024, 1024]⟩ : Shape).Idx → EReal)
    (b : (⟨2, ![1, 1024]⟩ : Shape).Idx → EReal) (r : Fin 4096) (d : Fin 1024) : EReal :=
  (∑ k : Fin 1024, x (ix2 r k) * w (ix2 k d)) + b (ix2 (0 : Fin 1) d)

/-- The projection as a whole table. -/
def projTab (x : (⟨2, ![4096, 1024]⟩ : Shape).Idx → EReal) (w : (⟨2, ![1024, 1024]⟩ : Shape).Idx → EReal)
    (b : (⟨2, ![1, 1024]⟩ : Shape).Idx → EReal) : (⟨2, ![4096, 1024]⟩ : Shape).Idx → EReal :=
  fun i => projRow x w b ⟨(i 0).val, (i 0).isLt⟩ ⟨(i 1).val, (i 1).isLt⟩

/-- A bias vector laid as a one-row table gives the same projection. -/
theorem projRow_eq (x : (⟨2, ![4096, 1024]⟩ : Shape).Idx → EReal) (w : (⟨2, ![1024, 1024]⟩ : Shape).Idx → EReal)
    (b : (⟨2, ![1, 1024]⟩ : Shape).Idx → EReal) (b' : (⟨1, ![1024]⟩ : Shape).Idx → EReal)
    (h : ∀ d : Fin 1024, b (ix2 (0 : Fin 1) d) = b' (ix1 d)) (r : Fin 4096) (d : Fin 1024) :
    projRow x w b r d = proj x w b' r d := by
  unfold projRow proj
  rw [h d]

/-- The weight output row r gives to row j: the logistic function of their scaled inner product. -/
def weight (Q K : Fin 4096 → Fin 1024 → EReal) (r j : Fin 4096) : EReal :=
  Ideal.logistic ((∑ d : Fin 1024, Q r d * K j d) * Ideal.ofBits .f32 0x3D000000#32)

/-- Entry (r, c) of the result: the rows of V summed with those weights. -/
def mix (Q K V : Fin 4096 → Fin 1024 → EReal) (r : Fin 4096) (c : Fin 1024) : EReal :=
  ∑ j : Fin 4096, weight Q K r j * V j c

/-- The whole result table, from the eight argument arrays. -/
def result (q x : (⟨2, ![4096, 1024]⟩ : Shape).Idx → EReal) (wq : (⟨2, ![1024, 1024]⟩ : Shape).Idx → EReal)
    (bq : (⟨1, ![1024]⟩ : Shape).Idx → EReal) (wk : (⟨2, ![1024, 1024]⟩ : Shape).Idx → EReal)
    (bk : (⟨1, ![1024]⟩ : Shape).Idx → EReal) (wv : (⟨2, ![1024, 1024]⟩ : Shape).Idx → EReal)
    (bv : (⟨1, ![1024]⟩ : Shape).Idx → EReal) : (⟨2, ![4096, 1024]⟩ : Shape).Idx → EReal :=
  fun i => mix (proj q wq bq) (proj x wk bk) (proj x wv bv) ⟨(i 0).val, (i 0).isLt⟩ ⟨(i 1).val, (i 1).isLt⟩

/-- Row a of tile k: row 1024·k + a of the 4096. -/
def tile (k : Fin 4) (a : Fin 1024) : Fin 4096 := ⟨1024 * k.val + a.val, by omega⟩

/-- The rows are the four tiles' rows, each once. -/
def tileEquiv : Fin 4 × Fin 1024 ≃ Fin 4096 where
  toFun p := tile p.1 p.2
  invFun j := (⟨j.val / 1024, by omega⟩, ⟨j.val % 1024, by omega⟩)
  left_inv p := by
    obtain ⟨k, a⟩ := p
    refine Prod.ext (Fin.ext ?_) (Fin.ext ?_)
    · show (1024 * k.val + a.val) / 1024 = k.val
      omega
    · show (1024 * k.val + a.val) % 1024 = a.val
      omega
  right_inv j := by
    refine Fin.ext ?_
    show 1024 * (j.val / 1024) + j.val % 1024 = j.val
    omega

/-- A sum over the 4096 rows is the four tile sums added in order onto 0. -/
theorem sum_tiles (f : Fin 4096 → EReal) :
    ∑ j : Fin 4096, f j
      = (((0 + ∑ a : Fin 1024, f (tile 0 a)) + ∑ a : Fin 1024, f (tile 1 a)) + ∑ a : Fin 1024, f (tile 2 a))
        + ∑ a : Fin 1024, f (tile 3 a) := by
  rw [← Equiv.sum_comp tileEquiv f, Fintype.sum_prod_type, Fin.sum_univ_four, zero_add]
  rfl

/-- What one tile of rows contributes to entry (r, c). -/
def tileSum (Q K V : Fin 4096 → Fin 1024 → EReal) (r : Fin 4096) (k : Fin 4) (c : Fin 1024) : EReal :=
  ∑ a : Fin 1024, weight Q K r (tile k a) * V (tile k a) c

/-- The result entry is the four tiles' contributions added in order onto 0. -/
theorem mix_tiles (Q K V : Fin 4096 → Fin 1024 → EReal) (r : Fin 4096) (c : Fin 1024) :
    mix Q K V r c = (((0 + tileSum Q K V r 0 c) + tileSum Q K V r 1 c) + tileSum Q K V r 2 c) + tileSum Q K V r 3 c :=
  sum_tiles fun j => weight Q K r j * V j c

end Cert.Attn

end
-- ==== Proof.ArrQ.lean ====
/-
  The array the query projection leaves.

  The first call runs over four grid points; point t reads rows 1024·t … 1024·t + 1023 of its first operand, the whole
  weight table and the whole one-row bias, and writes back block t of its result. So, whatever the arrays hold when
  the call is entered, the result array ends holding  x·w + b  of them, entry by entry: each entry lies in exactly the
  block of the point that covers its row.
-/
import proofs.«133280_j18837726560765_2_alg».proof.Proof.Gen.KernelIdeal.Frame
import proofs.«133280_j18837726560765_2_alg».proof.Proof.KPay
import proofs.«133280_j18837726560765_2_alg».proof.Proof.Attn
import Idealize.ShloMosaic.Lib.Pipeline.Value

noncomputable section

open scoped BigOperators

namespace Cert.KernelIdeal.ArrQ

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the four windows at each point, decided over the grid. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The table the result array ends holding. -/
abbrev tab (c : Dev nD) : S4096x1024.Idx → EReal :=
  Cert.Attn.projTab (V c main_arg0) (V c main_arg2) (V c main_v0)

/-- What point t writes back is block t of that table. -/
theorem flushed_eq (c : Dev nD) (t : Fin cfg0.N) :
    (dat0 V c).flushed 3 t = ((cfg0.win 3).blk t).view.read (Elt Ideal) (tab V c) := by
  show (cfg0.win 3).cut (grid0.coords t) ((dat0 V c).after 3 t) = _
  rw [after0_3]
  unfold out0_3
  rw [View.canon_unit_zero hz]
  simp only [View.ld_unit_zero (S := S1024x1024) hz, View.ld_unit_zero (S := S1x1024) hz]
  have hN : t.val < 4 := lt_of_lt_of_eq t.isLt (show cfg0.N = 4 from N_0)
  obtain ⟨e00, e01, e10, e11, e20, e21, e30, e31⟩ := idx_facts t
  funext j
  obtain ⟨p, q, rfl⟩ : ∃ (p : Fin 1024) (q : Fin 1024), j = ix2 p q := ⟨j 0, j 1, eq_ix2 j⟩
  refine (Pay.proj_q (iblk0 V c 0 t) (iblk0 V c 1 t) (iblk0 V c 2 t) p q).trans ?_
  have hp : p.val < 1024 := p.isLt
  have hq : q.val < 1024 := q.isLt
  have hb : 1024 * t.val + p.val < 4096 := by omega
  have h0 : ∀ k : Fin 1024, iblk0 V c 0 t (ix2 p k) = V c main_arg0 (ix2 (⟨1024 * t.val + p.val, hb⟩ : Fin 4096) k) := fun k => by
    show V c main_arg0 (((cfg0.win 0).blk t).view.emb (ix2 p k)) = _
    refine congrArg (V c main_arg0) (funext fun a => Fin.ext ?_)
    have hk : k.val < 1024 := k.isLt
    match a with
    | ⟨0, _⟩ => show win0_0.index t (0 : Fin 2) * 1024 + 1 * p.val = 1024 * t.val + p.val; omega
    | ⟨1, _⟩ => show win0_0.index t (1 : Fin 2) * 1024 + 1 * k.val = k.val; omega
  have h1 : ∀ k : Fin 1024, iblk0 V c 1 t (ix2 k q) = V c main_arg2 (ix2 k q) := fun k => by
    show V c main_arg2 (((cfg0.win 1).blk t).view.emb (ix2 k q)) = _
    refine congrArg (V c main_arg2) (funext fun a => Fin.ext ?_)
    have hk : k.val < 1024 := k.isLt
    match a with
    | ⟨0, _⟩ => show win0_1.index t (0 : Fin 2) * 1024 + 1 * k.val = k.val; omega
    | ⟨1, _⟩ => show win0_1.index t (1 : Fin 2) * 1024 + 1 * q.val = q.val; omega
  have h2 : iblk0 V c 2 t (ix2 (0 : Fin 1) q) = V c main_v0 (ix2 (0 : Fin 1) q) := by
    show V c main_v0 (((cfg0.win 2).blk t).view.emb (ix2 (0 : Fin 1) q)) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 1024 + 1 * q.val = q.val; omega
  have h3 : ((cfg0.win 3).blk t).view.read (Elt Ideal) (tab V c) (ix2 p q)
      = tab V c (ix2 (⟨1024 * t.val + p.val, hb⟩ : Fin 4096) q) := by
    rw [View.read_apply]
    refine congrArg (tab V c) (funext fun a => Fin.ext ?_)
    match a with
    | ⟨0, _⟩ => show win0_3.index t (0 : Fin 2) * 1024 + 1 * p.val = 1024 * t.val + p.val; omega
    | ⟨1, _⟩ => show win0_3.index t (1 : Fin 2) * 1024 + 1 * q.val = q.val; omega
  rw [h3, h2]
  simp only [h0, h1]
  rfl

/-- An index of the array is in point t's block iff each coordinate is in the block's range on its axis. -/
theorem mem_blk (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- The result array after the call: x·w + b of the arrays as the call finds them. -/
theorem final (c : Dev nD) : (dat0 V c).arrAt 3 cfg0.N = tab V c :=
  (dat0 V c).arrAt_eq_of_cover 3 (tab V c) (fun t _ => flushed_eq V c t) fun i => by
    have hi0 : (i 0).val < 4096 := (i 0).isLt
    have hi1 : (i 1).val < 1024 := (i 1).isLt
    have hN : cfg0.N = 4 := N_0
    refine ⟨⟨(i 0).val / 1024, by rw [hN]; omega⟩, flush0_3 _, ?_⟩
    rw [mem_blk]
    obtain ⟨e00, e01, e10, e11, e20, e21, e30, e31⟩ := idx_facts ⟨(i 0).val / 1024, by rw [hN]; omega⟩
    intro a
    match a with
    | ⟨0, _⟩ =>
      show win0_3.index _ (0 : Fin 2) * 1024 ≤ (i 0).val ∧ (i 0).val < win0_3.index _ (0 : Fin 2) * 1024 + 1024
      rw [e30]; show (i 0).val / 1024 * 1024 ≤ (i 0).val ∧ (i 0).val < (i 0).val / 1024 * 1024 + 1024; omega
    | ⟨1, _⟩ =>
      show win0_3.index _ (1 : Fin 2) * 1024 ≤ (i 1).val ∧ (i 1).val < win0_3.index _ (1 : Fin 2) * 1024 + 1024
      rw [e31]; omega

end Cert.KernelIdeal.ArrQ

end
-- ==== Proof.ArrKV.lean ====
/-
  The arrays the key and value projections leave.

  The second call runs over eight grid points; point t reads rows 512·t … 512·t + 511 of its first operand, both weight
  tables and both one-row biases whole, and writes back block t of each of its two results. So, whatever the arrays
  hold when the call is entered, the two result arrays end holding  x·wk + bk  and  x·wv + bv  of them, entry by entry.
-/
import proofs.«133280_j18837726560765_2_alg».proof.Proof.Gen.KernelIdeal.Frame
import proofs.«133280_j18837726560765_2_alg».proof.Proof.KPay
import proofs.«133280_j18837726560765_2_alg».proof.Proof.Attn
import Idealize.ShloMosaic.Lib.Pipeline.Value

noncomputable section

open scoped BigOperators

namespace Cert.KernelIdeal.ArrKV

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the seven windows at each point, decided over the grid. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The table the key array ends holding. -/
abbrev tabK (c : Dev nD) : S4096x1024.Idx → EReal :=
  Cert.Attn.projTab (V c main_arg1) (V c main_arg4) (V c main_v2)

/-- The table the value array ends holding. -/
abbrev tabV (c : Dev nD) : S4096x1024.Idx → EReal :=
  Cert.Attn.projTab (V c main_arg1) (V c main_arg6) (V c main_v3)

/-- Row 512·t + p of the first operand is row p of its block at point t. -/
theorem rows_eq (c : Dev nD) (t : Fin cfg1.N) (p : Fin 512) (hb : 512 * t.val + p.val < 4096) (k : Fin 1024) :
    iblk1 V c 0 t (ix2 p k) = V c main_arg1 (ix2 (⟨512 * t.val + p.val, hb⟩ : Fin 4096) k) := by
  obtain ⟨e00, e01, -⟩ := idx_facts t
  show V c main_arg1 (((cfg1.win 0).blk t).view.emb (ix2 p k)) = _
  refine congrArg (V c main_arg1) (funext fun a => Fin.ext ?_)
  have hk : k.val < 1024 := k.isLt
  match a with
  | ⟨0, _⟩ => show win1_0.index t (0 : Fin 2) * 512 + 1 * p.val = 512 * t.val + p.val; omega
  | ⟨1, _⟩ => show win1_0.index t (1 : Fin 2) * 1024 + 1 * k.val = k.val; omega

/-- What point t writes back to the key array is block t of its table. -/
theorem flushedK_eq (c : Dev nD) (t : Fin cfg1.N) :
    (dat1 V c).flushed 5 t = ((cfg1.win 5).blk t).view.read (Elt Ideal) (tabK V c) := by
  show (cfg1.win 5).cut (grid1.coords t) ((dat1 V c).after 5 t) = _
  rw [after1_5]
  unfold out1_5
  rw [View.canon_unit_zero hz]
  simp only [View.ld_unit_zero (S := S512x1024) hz, View.ld_unit_zero (S := S1024x1024) hz, View.ld_unit_zero (S := S1x1024) hz]
  have hN : t.val < 8 := lt_of_lt_of_eq t.isLt (show cfg1.N = 8 from N_1)
  obtain ⟨e00, e01, e10, e11, e20, e21, e30, e31, e40, e41, e50, e51, e60, e61⟩ := idx_facts t
  funext j
  obtain ⟨p, q, rfl⟩ : ∃ (p : Fin 512) (q : Fin 1024), j = ix2 p q := ⟨j 0, j 1, eq_ix2 j⟩
  refine (Pay.proj_k (iblk1 V c 0 t) (iblk1 V c 1 t) (iblk1 V c 2 t) p q).trans ?_
  have hp : p.val < 512 := p.isLt
  have hq : q.val < 1024 := q.isLt
  have hb : 512 * t.val + p.val < 4096 := by omega
  have h1 : ∀ k : Fin 1024, iblk1 V c 1 t (ix2 k q) = V c main_arg4 (ix2 k q) := fun k => by
    show V c main_arg4 (((cfg1.win 1).blk t).view.emb (ix2 k q)) = _
    refine congrArg (V c main_arg4) (funext fun a => Fin.ext ?_)
    have hk : k.val < 1024 := k.isLt
    match a with
    | ⟨0, _⟩ => show win1_1.index t (0 : Fin 2) * 1024 + 1 * k.val = k.val; omega
    | ⟨1, _⟩ => show win1_1.index t (1 : Fin 2) * 1024 + 1 * q.val = q.val; omega
  have h2 : iblk1 V c 2 t (ix2 (0 : Fin 1) q) = V c main_v2 (ix2 (0 : Fin 1) q) := by
    show V c main_v2 (((cfg1.win 2).blk t).view.emb (ix2 (0 : Fin 1) q)) = _
    refine congrArg (V c main_v2) (funext fun a => Fin.ext ?_)
    match a with
    | ⟨0, _⟩ => show win1_2.index t (0 : Fin 2) * 1 + 1 * 0 = 0; omega
    | ⟨1, _⟩ => show win1_2.index t (1 : Fin 2) * 1024 + 1 * q.val = q.val; omega
  have h3 : ((cfg1.win 5).blk t).view.read (Elt Ideal) (tabK V c) (ix2 p q)
      = tabK V c (ix2 (⟨512 * t.val + p.val, hb⟩ : Fin 4096) q) := by
    rw [View.read_apply]
    refine congrArg (tabK V c) (funext fun a => Fin.ext ?_)
    match a with
    | ⟨0, _⟩ => show win1_5.index t (0 : Fin 2) * 512 + 1 * p.val = 512 * t.val + p.val; omega
    | ⟨1, _⟩ => show win1_5.index t (1 : Fin 2) * 1024 + 1 * q.val = q.val; omega
  rw [h3, h2]
  simp only [rows_eq V c t p hb, h1]
  rfl

/-- What point t writes back to the value array is block t of its table. -/
theorem flushedV_eq (c : Dev nD) (t : Fin cfg1.N) :
    (dat1 V c).flushed 6 t = ((cfg1.win 6).blk t).view.read (Elt Ideal) (tabV V c) := by
  show (cfg1.win 6).cut (grid1.coords t) ((dat1 V c).after 6 t) = _
  rw [after1_6]
  unfold out1_6
  rw [View.canon_unit_zero hz]
  simp only [View.ld_unit_zero (S := S512x1024) hz, View.ld_unit_zero (S := S1024x1024) hz, View.ld_unit_zero (S := S1x1024) hz]
  have hN : t.val < 8 := lt_of_lt_of_eq t.isLt (show cfg1.N = 8 from N_1)
  obtain ⟨e00, e01, e10, e11, e20, e21, e30, e31, e40, e41, e50, e51, e60, e61⟩ := idx_facts t
  funext j
  obtain ⟨p, q, rfl⟩ : ∃ (p : Fin 512) (q : Fin 1024), j = ix2 p q := ⟨j 0, j 1, eq_ix2 j⟩
  refine (Pay.proj_v (iblk1 V c 0 t) (iblk1 V c 3 t) (iblk1 V c 4 t) p q).trans ?_
  have hp : p.val < 512 := p.isLt
  have hq : q.val < 1024 := q.isLt
  have hb : 512 * t.val + p.val < 4096 := by omega
  have h1 : ∀ k : Fin 1024, iblk1 V c 3 t (ix2 k q) = V c main_arg6 (ix2 k q) := fun k => by
    show V c main_arg6 (((cfg1.win 3).blk t).view.emb (ix2 k q)) = _
    refine congrArg (V c main_arg6) (funext fun a => Fin.ext ?_)
    have hk : k.val < 1024 := k.isLt
    match a with
    | ⟨0, _⟩ => show win1_3.index t (0 : Fin 2) * 1024 + 1 * k.val = k.val; omega
    | ⟨1, _⟩ => show win1_3.index t (1 : Fin 2) * 1024 + 1 * q.val = q.val; omega
  have h2 : iblk1 V c 4 t (ix2 (0 : Fin 1) q) = V c main_v3 (ix2 (0 : Fin 1) q) := by
    show V c main_v3 (((cfg1.win 4).blk t).view.emb (ix2 (0 : Fin 1) q)) = _
    refine congrArg (V c main_v3) (funext fun a => Fin.ext ?_)
    match a with
    | ⟨0, _⟩ => show win1_4.index t (0 : Fin 2) * 1 + 1 * 0 = 0; omega
    | ⟨1, _⟩ => show win1_4.index t (1 : Fin 2) * 1024 + 1 * q.val = q.val; omega
  have h3 : ((cfg1.win 6).blk t).view.read (Elt Ideal) (tabV V c) (ix2 p q)
      = tabV V c (ix2 (⟨512 * t.val + p.val, hb⟩ : Fin 4096) q) := by
    rw [View.read_apply]
    refine congrArg (tabV V c) (funext fun a => Fin.ext ?_)
    match a with
    | ⟨0, _⟩ => show win1_6.index t (0 : Fin 2) * 512 + 1 * p.val = 512 * t.val + p.val; omega
    | ⟨1, _⟩ => show win1_6.index t (1 : Fin 2) * 1024 + 1 * q.val = q.val; omega
  rw [h3, h2]
  simp only [rows_eq V c t p hb, h1]
  rfl

/-- An index of the key array is in point t's block iff each coordinate is in the block's range on its axis. -/
theorem mem_blkK (t : Fin cfg1.N) (i : S4096x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v4_0).slice (win1_5.rect t)).set ↔ _
  rw [View.set_slice_whole, Rect.mem_set_unit]
  exact Iff.rfl

/-- An index of the value array is in point t's block iff each coordinate is in the block's range on its axis. -/
theorem mem_blkV (t : Fin cfg1.N) (i : S4096x1024.Idx) :
    i ∈ ((cfg1.win 6).blk t).view.set ↔ ∀ a : Fin 2, win1_6.index t a * S512x1024.size a ≤ (i a).val ∧ (i a).val < win1_6.index t a * S512x1024.size a + S512x1024.size a := by
  show i ∈ ((View.whole main_v4_1).slice (win1_6.rect t)).set ↔ _
  rw [View.set_slice_whole, Rect.mem_set_unit]
  exact Iff.rfl

/-- The key array after the call: x·wk + bk of the arrays as the call finds them. -/
theorem finalK (c : Dev nD) : (dat1 V c).arrAt 5 cfg1.N = tabK V c :=
  (dat1 V c).arrAt_eq_of_cover 5 (tabK V c) (fun t _ => flushedK_eq V c t) fun i => by
    have hi0 : (i 0).val < 4096 := (i 0).isLt
    have hi1 : (i 1).val < 1024 := (i 1).isLt
    have hN : cfg1.N = 8 := N_1
    refine ⟨⟨(i 0).val / 512, by rw [hN]; omega⟩, flush1_5 _, ?_⟩
    rw [mem_blkK]
    obtain ⟨e00, e01, e10, e11, e20, e21, e30, e31, e40, e41, e50, e51, e60, e61⟩ := idx_facts ⟨(i 0).val / 512, by rw [hN]; omega⟩
    intro a
    match a with
    | ⟨0, _⟩ =>
      show win1_5.index _ (0 : Fin 2) * 512 ≤ (i 0).val ∧ (i 0).val < win1_5.index _ (0 : Fin 2) * 512 + 512
      rw [e50]; show (i 0).val / 512 * 512 ≤ (i 0).val ∧ (i 0).val < (i 0).val / 512 * 512 + 512; omega
    | ⟨1, _⟩ =>
      show win1_5.index _ (1 : Fin 2) * 1024 ≤ (i 1).val ∧ (i 1).val < win1_5.index _ (1 : Fin 2) * 1024 + 1024
      rw [e51]; omega

/-- The value array after the call: x·wv + bv of the arrays as the call finds them. -/
theorem finalV (c : Dev nD) : (dat1 V c).arrAt 6 cfg1.N = tabV V c :=
  (dat1 V c).arrAt_eq_of_cover 6 (tabV V c) (fun t _ => flushedV_eq V c t) fun i => by
    have hi0 : (i 0).val < 4096 := (i 0).isLt
    have hi1 : (i 1).val < 1024 := (i 1).isLt
    have hN : cfg1.N = 8 := N_1
    refine ⟨⟨(i 0).val / 512, by rw [hN]; omega⟩, flush1_6 _, ?_⟩
    rw [mem_blkV]
    obtain ⟨e00, e01, e10, e11, e20, e21, e30, e31, e40, e41, e50, e51, e60, e61⟩ := idx_facts ⟨(i 0).val / 512, by rw [hN]; omega⟩
    intro a
    match a with
    | ⟨0, _⟩ =>
      show win1_6.index _ (0 : Fin 2) * 512 ≤ (i 0).val ∧ (i 0).val < win1_6.index _ (0 : Fin 2) * 512 + 512
      rw [e60]; show (i 0).val / 512 * 512 ≤ (i 0).val ∧ (i 0).val < (i 0).val / 512 * 512 + 512; omega
    | ⟨1, _⟩ =>
      show win1_6.index _ (1 : Fin 2) * 1024 ≤ (i 1).val ∧ (i 1).val < win1_6.index _ (1 : Fin 2) * 1024 + 1024
      rw [e61]; omega

end Cert.KernelIdeal.ArrKV

end
-- ==== Proof.ArrO.lean ====
/-
  The array the attention call leaves.

  The third call runs over a 4 × 4 grid, point n = 4·q + k holding query tile q (rows 1024·q … of the query array)
  and key tile k (rows 1024·k … of the key and value arrays). Its output block moves with q only and is written back
  after the last key tile. On key tile 0 the body zeroes the block and adds tile 0's weighted rows of values; on the
  other key tiles it adds that tile's onto what the point before left. So after point 4·q + k the block holds, at
  (a, c), the contributions of key tiles 0 … k to row 1024·q + a added in order onto 0 (by induction on the point), and
  what is written back after k = 3 is the whole sum over the 4096 rows: re-grouping a finite sum on the extended
  reals, which needs no finiteness.
-/
import proofs.«133280_j18837726560765_2_alg».proof.Proof.Gen.KernelIdeal.Frame
import proofs.«133280_j18837726560765_2_alg».proof.Proof.KPay
import proofs.«133280_j18837726560765_2_alg».proof.Proof.Attn
import Idealize.ShloMosaic.Lib.Pipeline.Value
import Idealize.ShloMosaic.Lib.Tactic

noncomputable section

open scoped BigOperators

namespace Cert.KernelIdeal.ArrO

open Cert.KernelIdeal Cert.KernelIdeal.Gen Idealize.ShloMosaic Idealize.ShloMosaic.TcCoe Idealize.ShloMosaic.ValueIdx
open Idealize.ShloMosaic.Tactic Idealize.SL.Sem
open Idealize.ShloMosaic.Pipeline (Dat)

theorem hz : (![0, 0] : Fin 2 → Nat) = fun _ => 0 := funext fun a => by fin_cases a <;> rfl

/-! ## What the body leaves, case by case -/

/-- On a later key tile the body leaves its accumulating store over the running block. -/
theorem out_B {F : FTy → Type} [FloatOps F] (c : Dev nD) (i : grid2.Coords) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (hc : ¬cond2_0 i)
    (x0 x1 x2 : Vec F S1024x1024 .bf16) (xo : Vec F S1024x1024 .f32) :
    out2_B_3 c i a2 h2 a3 h3 a4 h4 a5 h5 hc x0 x1 x2 xo = k2_pay2 x0 x1 xo x2 := by
  unfold out2_B_3
  rw [View.read_writes_eq_canon _ _ _ (cover2_B_3 c i a2 h2 a3 h3 a4 h4 a5 h5 hc x0 x1 x2 xo)]
  unfold kernelRun2_B
  dsimp only
  rw [View.canon_unit_zero hz]
  simp only [View.readAt_eq_ld, h2.read_unread, h3.read_unread, h4.read_unread, h5.read_unread, View.ld_unit_zero (S := S1024x1024) hz]

/-- On key tile 0 the body leaves its accumulating store over the zero block it has just stored. -/
theorem out_A {F : FTy → Type} [FloatOps F] (c : Dev nD) (i : grid2.Coords) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (hc : cond2_0 i)
    (x0 x1 x2 : Vec F S1024x1024 .bf16) :
    out2_A_3 c i a2 h2 a3 h3 a4 h4 a5 h5 hc x0 x1 x2 = k2_pay2 x0 x1 (k2_pay1 (F := F)) x2 := by
  unfold out2_A_3
  rw [View.read_writes_eq_canon _ _ _ (cover2_A_3 c i a2 h2 a3 h3 a4 h4 a5 h5 hc x0 x1 x2)]
  unfold kernelRun2_A
  dsimp only
  sl_unfold_words
  rw [View.canon_cons_unit_zero (S := S1024x1024) hz, View.readCov_unit_zero (S := S1024x1024) _ hz]
  simp only [View.readAt_eq_ld, h2.read_unread, h3.read_unread, h4.read_unread, View.ld_unit_zero (S := S1024x1024) hz]

/-! ## The running block, point by point -/

variable (V : (c : Dev nD) → (b : Ref sig .tc) → Buf (Elt Ideal) ((c : Thread nD τ).loc b))

/-- The query, key and value arrays as the call finds them, by row and column. -/
abbrev Qf (c : Dev nD) : Fin 4096 → Fin 1024 → EReal := fun r d => V c main_v1 (ix2 r d)
abbrev Kf (c : Dev nD) : Fin 4096 → Fin 1024 → EReal := fun r d => V c main_v4_0 (ix2 r d)
abbrev Vf (c : Dev nD) : Fin 4096 → Fin 1024 → EReal := fun r d => V c main_v4_1 (ix2 r d)

/-- Key tile k's contribution to entry (r, c), for k a natural number (nothing beyond the four tiles). -/
def contrib (c : Dev nD) (r : Fin 4096) (k : ℕ) (cc : Fin 1024) : EReal :=
  if h : k < 4 then Cert.Attn.tileSum (Qf V c) (Kf V c) (Vf V c) r ⟨k, h⟩ cc else 0

/-- The block indices of the four windows at each point, decided over the grid. -/
theorem idx_facts : ∀ t : Fin cfg2.N, win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val % 4 ∧ win2_2.index t (1 : Fin 2) = 0
    ∧ win2_3.index t (0 : Fin 2) = t.val / 4 ∧ win2_3.index t (1 : Fin 2) = 0 :=
  (by decide +kernel : ∀ t : Fin grid2.N, _)

/-- One accumulating store at point t, at entry (a, c): the running block's entry plus key tile t mod 4's
    contribution to row 1024·(t / 4) + a. -/
theorem step_apply (c : Dev nD) (t : Fin cfg2.N) (acc : FVec Ideal S1024x1024 .f32) (a cc : Fin 1024)
    (hb : 1024 * (t.val / 4) + a.val < 4096) :
    k2_pay2 (F := Ideal) (iblk2 V c 0 t) (iblk2 V c 1 t) acc (iblk2 V c 2 t) (ix2 a cc)
      = acc (ix2 a cc) + contrib V c ⟨1024 * (t.val / 4) + a.val, hb⟩ (t.val % 4) cc := by
  have hN : t.val < 16 := lt_of_lt_of_eq t.isLt (show cfg2.N = 16 from N_2)
  obtain ⟨e00, e01, e10, e11, e20, e21, e30, e31⟩ := idx_facts t
  have hk : t.val % 4 < 4 := by omega
  refine (Pay.attn_apply (iblk2 V c 0 t) (iblk2 V c 1 t) acc (iblk2 V c 2 t) a cc).trans ?_
  refine congrArg (acc (ix2 a cc) + ·) ?_
  unfold contrib
  rw [dif_pos hk]
  unfold Cert.Attn.tileSum
  have ha : a.val < 1024 := a.isLt
  have hc : cc.val < 1024 := cc.isLt
  have h0 : ∀ d : Fin 1024, iblk2 V c 0 t (ix2 a d) = Qf V c ⟨1024 * (t.val / 4) + a.val, hb⟩ d := fun d => by
    show V c main_v1 (((cfg2.win 0).blk t).view.emb (ix2 a d)) = V c main_v1 _
    refine congrArg (V c main_v1) (funext fun x => Fin.ext ?_)
    have hd : d.val < 1024 := d.isLt
    match x with
    | ⟨0, _⟩ => show win2_0.index t (0 : Fin 2) * 1024 + 1 * a.val = 1024 * (t.val / 4) + a.val; omega
    | ⟨1, _⟩ => show win2_0.index t (1 : Fin 2) * 1024 + 1 * d.val = d.val; omega
  have h1 : ∀ (j d : Fin 1024), iblk2 V c 1 t (ix2 j d) = Kf V c (Cert.Attn.tile ⟨t.val % 4, hk⟩ j) d := fun j d => by
    show V c main_v4_0 (((cfg2.win 1).blk t).view.emb (ix2 j d)) = V c main_v4_0 _
    refine congrArg (V c main_v4_0) (funext fun x => Fin.ext ?_)
    have hd : d.val < 1024 := d.isLt
    have hj : j.val < 1024 := j.isLt
    match x with
    | ⟨0, _⟩ => show win2_1.index t (0 : Fin 2) * 1024 + 1 * j.val = 1024 * (t.val % 4) + j.val; omega
    | ⟨1, _⟩ => show win2_1.index t (1 : Fin 2) * 1024 + 1 * d.val = d.val; omega
  have h2 : ∀ j : Fin 1024, iblk2 V c 2 t (ix2 j cc) = Vf V c (Cert.Attn.tile ⟨t.val % 4, hk⟩ j) cc := fun j => by
    show V c main_v4_1 (((cfg2.win 2).blk t).view.emb (ix2 j cc)) = V c main_v4_1 _
    refine congrArg (V c main_v4_1) (funext fun x => Fin.ext ?_)
    have hj : j.val < 1024 := j.isLt
    match x with
    | ⟨0, _⟩ => show win2_2.index t (0 : Fin 2) * 1024 + 1 * j.val = 1024 * (t.val % 4) + j.val; omega
    | ⟨1, _⟩ => show win2_2.index t (1 : Fin 2) * 1024 + 1 * cc.val = cc.val; omega
  refine Finset.sum_congr rfl fun j _ => ?_
  rw [h2 j]
  refine congrArg (· * Vf V c (Cert.Attn.tile ⟨t.val % 4, hk⟩ j) cc) ?_
  unfold Pay.wgt Cert.Attn.weight
  simp only [h0, h1]

/-- After point n the running block holds, at (a, c), the contributions of key tiles 0 … n mod 4 to row
    1024·(n / 4) + a, added in order. -/
theorem point_eq (c : Dev nD) : ∀ (n : ℕ) (h : n < cfg2.N) (a cc : Fin 1024) (hb : 1024 * (n / 4) + a.val < 4096),
    outsAt2 V c n h (ix2 a cc) = ∑ k ∈ Finset.range (n % 4 + 1), contrib V c ⟨1024 * (n / 4) + a.val, hb⟩ k cc
  | 0, h, a, cc, hb => by
    rw [outsAt2_A V c ⟨0, h⟩ rfl, out_A]
    refine (step_apply V c ⟨0, h⟩ _ a cc hb).trans ?_
    rw [Pay.zero_apply, zero_add]
    show _ = ∑ k ∈ Finset.range 1, _
    rw [Finset.sum_range_one]
    rfl
  | n + 1, h, a, cc, hb => by
    have hN : n + 1 < 16 := lt_of_lt_of_eq h (show cfg2.N = 16 from N_2)
    by_cases h0 : (n + 1) % 4 = 0
    · rw [outsAt2_A V c ⟨n + 1, h⟩ h0, out_A]
      refine (step_apply V c ⟨n + 1, h⟩ _ a cc hb).trans ?_
      rw [Pay.zero_apply, zero_add]
      show contrib V c _ ((n + 1) % 4) cc = _
      rw [h0]
      show _ = ∑ k ∈ Finset.range 1, _
      rw [Finset.sum_range_one]
    · rw [outsAt2_B V c ⟨n + 1, h⟩ h0, out_B]
      refine (step_apply V c ⟨n + 1, h⟩ _ a cc hb).trans ?_
      have hq : n / 4 = (n + 1) / 4 := by omega
      have hm : n % 4 + 1 = (n + 1) % 4 := by omega
      have hb' : 1024 * (n / 4) + a.val < 4096 := by omega
      have ih := point_eq c n (Nat.lt_of_succ_lt h) a cc hb'
      show outsAt2 V c n _ (ix2 a cc) + contrib V c _ ((n + 1) % 4) cc = _
      rw [ih, Finset.sum_range_succ (fun k => contrib V c _ k cc) ((n + 1) % 4)]
      refine congrArg (· + contrib V c _ ((n + 1) % 4) cc) ?_
      rw [hm]
      refine Finset.sum_congr rfl fun k _ => ?_
      refine congrArg (fun r => contrib V c r k cc) (Fin.ext ?_)
      show 1024 * (n / 4) + a.val = 1024 * ((n + 1) / 4) + a.val
      rw [hq]

/-! ## The result array -/

/-- The table the result array ends holding. -/
abbrev tab (c : Dev nD) : S4096x1024.Idx → EReal :=
  fun i => Cert.Attn.mix (Qf V c) (Kf V c) (Vf V c) ⟨(i 0).val, (i 0).isLt⟩ ⟨(i 1).val, (i 1).isLt⟩

/-- What a point after the last key tile writes back is its block of that table. -/
theorem flushed_eq (c : Dev nD) (t : Fin cfg2.N) (hf : (cfg2.win 3).flush t = true) :
    (dat2 V c).flushed 3 t = ((cfg2.win 3).blk t).view.read (Elt Ideal) (tab V c) := by
  have hN : t.val < 16 := lt_of_lt_of_eq t.isLt (show cfg2.N = 16 from N_2)
  have h3 : t.val % 4 = 3 := (flush2_3 t).mp hf
  obtain ⟨e00, e01, e10, e11, e20, e21, e30, e31⟩ := idx_facts t
  show (cfg2.win 3).cut (grid2.coords t) ((dat2 V c).after 3 t) = _
  rw [after2_3]
  funext j
  obtain ⟨a, cc, rfl⟩ : ∃ (a : Fin 1024) (cc : Fin 1024), j = ix2 a cc := ⟨j 0, j 1, eq_ix2 j⟩
  have ha : a.val < 1024 := a.isLt
  have hc : cc.val < 1024 := cc.isLt
  have hb : 1024 * (t.val / 4) + a.val < 4096 := by omega
  refine (point_eq V c t.val t.isLt a cc hb).trans ?_
  have hr : ((cfg2.win 3).blk t).view.read (Elt Ideal) (tab V c) (ix2 a cc)
      = tab V c (ix2 (⟨1024 * (t.val / 4) + a.val, hb⟩ : Fin 4096) cc) := by
    rw [View.read_apply]
    refine congrArg (tab V c) (funext fun x => Fin.ext ?_)
    match x with
    | ⟨0, _⟩ => show win2_3.index t (0 : Fin 2) * 1024 + 1 * a.val = 1024 * (t.val / 4) + a.val; omega
    | ⟨1, _⟩ => show win2_3.index t (1 : Fin 2) * 1024 + 1 * cc.val = cc.val; omega
  rw [hr, h3]
  show _ = Cert.Attn.mix (Qf V c) (Kf V c) (Vf V c) ⟨1024 * (t.val / 4) + a.val, hb⟩ cc
  rw [Cert.Attn.mix_tiles, Finset.sum_range_succ, Finset.sum_range_succ, Finset.sum_range_succ, Finset.sum_range_one, zero_add]
  unfold contrib
  rw [dif_pos (by decide : (0 : ℕ) < 4), dif_pos (by decide : (1 : ℕ) < 4), dif_pos (by decide : (2 : ℕ) < 4), dif_pos (by decide : (3 : ℕ) < 4)]
  rfl

/-- An index of the array is in point t's block iff each coordinate is in the block's range on its axis. -/
theorem mem_blk (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v5).slice (win2_3.rect t)).set ↔ _
  rw [View.set_slice_whole, Rect.mem_set_unit]
  exact Iff.rfl

/-- The result array after the call: the gated mix of the query, key and value arrays as the call finds them. -/
theorem final (c : Dev nD) : (dat2 V c).arrAt 3 cfg2.N = tab V c :=
  (dat2 V c).arrAt_eq_of_cover 3 (tab V c) (fun t hf => flushed_eq V c t hf) fun i => by
    have hi0 : (i 0).val < 4096 := (i 0).isLt
    have hi1 : (i 1).val < 1024 := (i 1).isLt
    have hN : cfg2.N = 16 := N_2
    have hlt : 4 * ((i 0).val / 1024) + 3 < cfg2.N := by rw [hN]; omega
    refine ⟨⟨4 * ((i 0).val / 1024) + 3, hlt⟩, (flush2_3 _).mpr (by show (4 * ((i 0).val / 1024) + 3) % 4 = 3; omega), ?_⟩
    rw [mem_blk]
    obtain ⟨e00, e01, e10, e11, e20, e21, e30, e31⟩ := idx_facts ⟨4 * ((i 0).val / 1024) + 3, hlt⟩
    intro a
    match a with
    | ⟨0, _⟩ =>
      show win2_3.index _ (0 : Fin 2) * 1024 ≤ (i 0).val ∧ (i 0).val < win2_3.index _ (0 : Fin 2) * 1024 + 1024
      rw [e30]; show (4 * ((i 0).val / 1024) + 3) / 4 * 1024 ≤ (i 0).val ∧ (i 0).val < (4 * ((i 0).val / 1024) + 3) / 4 * 1024 + 1024; omega
    | ⟨1, _⟩ =>
      show win2_3.index _ (1 : Fin 2) * 1024 ≤ (i 1).val ∧ (i 1).val < win2_3.index _ (1 : Fin 2) * 1024 + 1024
      rw [e31]; omega

end Cert.KernelIdeal.ArrO

end
-- ==== Proof.KValue.lean ====
/-
  The kernel program's result is the gated mix of its arguments.

  Walking the segment boundaries back from the end: the result buffer holds what the attention call leaves, the gated
  mix of the arrays it finds; those are the query array, which no later segment touches, as the first call left it —
  q·Wq + bq of the launch contents, the bias read through the host's re-shaping of the vector to one row — and the key
  and value arrays as the second call left them — x·Wk + bk and x·Wv + bv likewise. So the result is the gated mix of the
  three projections of the eight arguments.
-/
import proofs.«133280_j18837726560765_2_alg».proof.Proof.Gen.KernelIdeal.Frame
import proofs.«133280_j18837726560765_2_alg».proof.Proof.ArrQ
import proofs.«133280_j18837726560765_2_alg».proof.Proof.ArrKV
import proofs.«133280_j18837726560765_2_alg».proof.Proof.ArrO
import proofs.«133280_j18837726560765_2_alg».proof.Proof.Attn
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.Value

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- A buffer no operation of a host stretch writes is the same after the stretch. -/
local macro "host_skip" : tactic => `(tactic| (
  refine StableHlo.after_of_forall_not_mem _ _ (List.forall_iff_forall_mem.mp ?_)
  simp only [hostOps0, hostOps1, List.flatten_cons, List.flatten_nil, List.append_nil, List.cons_append,
    List.nil_append, List.Forall, StableHlo.reshape_writes, Finset.mem_singleton]
  repeat' apply And.intro
  all_goals exact StableHlo.devRef_ne_of_ne (by decide)))

/-! ## What the first call finds -/

theorem V1_arg0 (c : Dev nD) : V1 m ρ c main_arg0 = m ((c : Thread nD τ).loc main_arg0) := by
  show StableHlo.after hostOps0 (W0 m ρ c) (Proc.devRef .tc main_arg0) = W0 m ρ c (Proc.devRef .tc main_arg0)
  host_skip

theorem V1_arg2 (c : Dev nD) : V1 m ρ c main_arg2 = m ((c : Thread nD τ).loc main_arg2) := by
  show StableHlo.after hostOps0 (W0 m ρ c) (Proc.devRef .tc main_arg2) = W0 m ρ c (Proc.devRef .tc main_arg2)
  host_skip

/-- The bias row the first call finds is the bias vector laid as one row. -/
theorem V1_v0 (c : Dev nD) (d : Fin 1024) :
    V1 m ρ c main_v0 (ix2 (0 : Fin 1) d) = m ((c : Thread nD τ).loc main_arg3) (ix1 d) := by
  have e : (V1 m ρ c main_v0 : S1x1024.Idx → EReal)
      = shapeCast S1x1024 (m ((c : Thread nD τ).loc main_arg3)) shapeCasts_S1024_S1x1024 := by
    show StableHlo.after hostOps0 (W0 m ρ c) (Proc.devRef .tc main_v0) = _
    after_results
    rfl
  rw [e]
  exact shapeCast_apply _ shapeCasts_S1024_S1x1024 (ix2 (0 : Fin 1) d) (ix1 d) (by
    rw [Shape.rowMajor_val_two, Shape.rowMajor_val_one]; show d.val = 0 * 1024 + d.val; omega)

/-! ## What the first call leaves -/

/-- The query array after the first call. -/
theorem W2_v1 (c : Dev nD) : W2 m ρ c (Proc.devRef .tc main_v1) = ArrQ.tab (V1 m ρ) c :=
  (W2_arr m ρ c 3).trans (ArrQ.final (V1 m ρ) c)

/-! ## What the second call finds -/

theorem V3_arg1 (c : Dev nD) : V3 m ρ c main_arg1 = m ((c : Thread nD τ).loc main_arg1) :=
  calc W3 m ρ c (Proc.devRef .tc main_arg1)
    _ = W2 m ρ c (Proc.devRef .tc main_arg1) := by host_skip
    _ = W1 m ρ c (Proc.devRef .tc main_arg1) := W2_of_ne m ρ c main_arg1 (by decide)
    _ = W0 m ρ c (Proc.devRef .tc main_arg1) := by host_skip
    _ = m ((c : Thread nD τ).loc main_arg1) := rfl

theorem V3_arg4 (c : Dev nD) : V3 m ρ c main_arg4 = m ((c : Thread nD τ).loc main_arg4) :=
  calc W3 m ρ c (Proc.devRef .tc main_arg4)
    _ = W2 m ρ c (Proc.devRef .tc main_arg4) := by host_skip
    _ = W1 m ρ c (Proc.devRef .tc main_arg4) := W2_of_ne m ρ c main_arg4 (by decide)
    _ = W0 m ρ c (Proc.devRef .tc main_arg4) := by host_skip
    _ = m ((c : Thread nD τ).loc main_arg4) := rfl

theorem V3_arg6 (c : Dev nD) : V3 m ρ c main_arg6 = m ((c : Thread nD τ).loc main_arg6) :=
  calc W3 m ρ c (Proc.devRef .tc main_arg6)
    _ = W2 m ρ c (Proc.devRef .tc main_arg6) := by host_skip
    _ = W1 m ρ c (Proc.devRef .tc main_arg6) := W2_of_ne m ρ c main_arg6 (by decide)
    _ = W0 m ρ c (Proc.devRef .tc main_arg6) := by host_skip
    _ = m ((c : Thread nD τ).loc main_arg6) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_skip
    _ = m ((c : Thread nD τ).loc main_arg5) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by host_skip
    _ = m ((c : Thread nD τ).loc main_arg7) := rfl

/-- The key bias row the second call finds is the bias vector laid as one row. -/
theorem V3_v2 (c : Dev nD) (d : Fin 1024) :
    V3 m ρ c main_v2 (ix2 (0 : Fin 1) d) = m ((c : Thread nD τ).loc main_arg5) (ix1 d) := by
  have e : (V3 m ρ c main_v2 : S1x1024.Idx → EReal)
      = shapeCast S1x1024 (W2 m ρ c (Proc.devRef .tc main_arg5)) shapeCasts_S1024_S1x1024 := by
    show StableHlo.after hostOps1 (W2 m ρ c) (Proc.devRef .tc main_v2) = _
    after_results
    rfl
  rw [e, W2_arg5]
  exact shapeCast_apply _ shapeCasts_S1024_S1x1024 (ix2 (0 : Fin 1) d) (ix1 d) (by
    rw [Shape.rowMajor_val_two, Shape.rowMajor_val_one]; show d.val = 0 * 1024 + d.val; omega)

/-- The value bias row the second call finds is the bias vector laid as one row. -/
theorem V3_v3 (c : Dev nD) (d : Fin 1024) :
    V3 m ρ c main_v3 (ix2 (0 : Fin 1) d) = m ((c : Thread nD τ).loc main_arg7) (ix1 d) := by
  have e : (V3 m ρ c main_v3 : S1x1024.Idx → EReal)
      = shapeCast S1x1024 (W2 m ρ c (Proc.devRef .tc main_arg7)) shapeCasts_S1024_S1x1024 := by
    show StableHlo.after hostOps1 (W2 m ρ c) (Proc.devRef .tc main_v3) = _
    after_results
    rfl
  rw [e, W2_arg7]
  exact shapeCast_apply _ shapeCasts_S1024_S1x1024 (ix2 (0 : Fin 1) d) (ix1 d) (by
    rw [Shape.rowMajor_val_two, Shape.rowMajor_val_one]; show d.val = 0 * 1024 + d.val; omega)

/-! ## What the attention call finds -/

theorem V4_v1 (c : Dev nD) : V4 m ρ c main_v1 = ArrQ.tab (V1 m ρ) c :=
  calc W4 m ρ c (Proc.devRef .tc main_v1)
    _ = W3 m ρ c (Proc.devRef .tc main_v1) := W4_of_ne m ρ c main_v1 (by decide)
    _ = W2 m ρ c (Proc.devRef .tc main_v1) := by host_skip
    _ = ArrQ.tab (V1 m ρ) c := W2_v1 m ρ c

theorem V4_v4_0 (c : Dev nD) : V4 m ρ c main_v4_0 = ArrKV.tabK (V3 m ρ) c :=
  (W4_arr m ρ c 5).trans (ArrKV.finalK (V3 m ρ) c)

theorem V4_v4_1 (c : Dev nD) : V4 m ρ c main_v4_1 = ArrKV.tabV (V3 m ρ) c :=
  (W4_arr m ρ c 6).trans (ArrKV.finalV (V3 m ρ) c)

/-- The query array the attention call finds is q·Wq + bq of the launch contents. -/
theorem Qf_eq (c : Dev nD) : ArrO.Qf (V4 m ρ) c
    = Cert.Attn.proj (m ((c : Thread nD τ).loc main_arg0)) (m ((c : Thread nD τ).loc main_arg2)) (m ((c : Thread nD τ).loc main_arg3)) :=
  funext fun r => funext fun d => by
    show V4 m ρ c main_v1 (ix2 r d) = _
    rw [V4_v1]
    show Cert.Attn.projRow (V1 m ρ c main_arg0) (V1 m ρ c main_arg2) (V1 m ρ c main_v0) r d = _
    rw [V1_arg0, V1_arg2]
    exact Cert.Attn.projRow_eq _ _ _ _ (V1_v0 m ρ c) r d

/-- The key array the attention call finds is x·Wk + bk of the launch contents. -/
theorem Kf_eq (c : Dev nD) : ArrO.Kf (V4 m ρ) c
    = Cert.Attn.proj (m ((c : Thread nD τ).loc main_arg1)) (m ((c : Thread nD τ).loc main_arg4)) (m ((c : Thread nD τ).loc main_arg5)) :=
  funext fun r => funext fun d => by
    show V4 m ρ c main_v4_0 (ix2 r d) = _
    rw [V4_v4_0]
    show Cert.Attn.projRow (V3 m ρ c main_arg1) (V3 m ρ c main_arg4) (V3 m ρ c main_v2) r d = _
    rw [V3_arg1, V3_arg4]
    exact Cert.Attn.projRow_eq _ _ _ _ (V3_v2 m ρ c) r d

/-- The value array the attention call finds is x·Wv + bv of the launch contents. -/
theorem Vf_eq (c : Dev nD) : ArrO.Vf (V4 m ρ) c
    = Cert.Attn.proj (m ((c : Thread nD τ).loc main_arg1)) (m ((c : Thread nD τ).loc main_arg6)) (m ((c : Thread nD τ).loc main_arg7)) :=
  funext fun r => funext fun d => by
    show V4 m ρ c main_v4_1 (ix2 r d) = _
    rw [V4_v4_1]
    show Cert.Attn.projRow (V3 m ρ c main_arg1) (V3 m ρ c main_arg6) (V3 m ρ c main_v3) r d = _
    rw [V3_arg1, V3_arg6]
    exact Cert.Attn.projRow_eq _ _ _ _ (V3_v3 m ρ c) r d

/-! ## The result -/

/-- The result the program leaves, as one function of the eight arguments. -/
abbrev result (c : Dev nD) : Buf (Elt Ideal) ((c : Thread nD τ).loc main_v5) :=
  Cert.Attn.result (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-- The last boundary's contents of the result buffer: the gated mix of the three projections of the arguments. -/
theorem result_eq (c : Dev nD) : W5 m ρ c (Proc.devRef .tc main_v5) = result m c := by
  refine ((W5_arr m ρ c 3).trans (ArrO.final (V4 m ρ) c)).trans ?_
  funext i
  show Cert.Attn.mix (ArrO.Qf (V4 m ρ) c) (ArrO.Kf (V4 m ρ) c) (ArrO.Vf (V4 m ρ) c) _ _ = Cert.Attn.mix _ _ _ _ _
  rw [Qf_eq, Kf_eq, Vf_eq]

end Cert.KernelIdeal.Value

end
-- ==== Proof.LibDenseRef.lean ====
/-
  One dense layer in the host's spelling, read at an entry.

  On the host a dense layer is a matrix product, a bias vector placed along the rows (first as a one-row table, then
  repeated down the rows) and, for a rectified layer, the maximum with a table of zeros made from a scalar zero.
  Entry (a, j) is  Σ_k x(a, k) · w(k, j) + b(j)  (and its maximum with 0): the same value as the vector unit's
  spelling of the layer (LibDense), whose bias is a one-row table. No finiteness is assumed.
-/
import Idealize.ShloMosaic.Lib.ValueIdx
import Idealize.ShloMosaic.Lib.ValueLayout
import Idealize.ShloMosaic.Lib.Pipeline.Value
import Idealize.ShloMosaic.PureOps.Ideal.Laws
import proofs.«133280_j18837726560765_2_alg».proof.Proof.LibDot

noncomputable section

open scoped BigOperators

namespace Cert.LibDenseRef

open Idealize.ShloMosaic Idealize.ShloMosaic.ValueIdx

/-- A scalar repeated over a whole table: every entry is the scalar. -/
theorem scalar_apply {α : Type} {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

/-- The linear part of the layer at entry (a, j). -/
theorem lin_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1]) (a : Fin m) (j : Fin p) :
    addf (Host.dotGeneral d none x w) (broadcastInDim ⟨2, ![m, p]⟩ ![0, 1] hbc (broadcastInDim ⟨2, ![1, p]⟩ ![1] hd b)) (ix2 a j)
      = (∑ k : Fin n, x (ix2 a k) * w (ix2 k j)) + b (ix1 j) := by
  rw [addf_apply, Cert.Sage.LibDot.row_dims_apply b hd hbc a j]
  congr 1
  simp only [Host.dotGeneral]
  rw [Ideal.dotGeneral_apply]
  exact Cert.Sage.LibDot.sum_plain d hr hs hl0 hl1 hr0 hr1 (fun i => x i) (fun i => w i) a j

/-- The rectified layer at entry (a, j). -/
theorem relu_apply {m n p : Nat} (d : DotDims ⟨2, ![m, n]⟩ ⟨2, ![n, p]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (q ⟨0, by omega⟩).val)
    (hr1 : ∀ (i : (⟨2, ![m, p]⟩ : Shape).Idx) (q : d.contr.Idx), (d.rhsIdx i q 1).val = (i 1).val)
    (x : FVec Ideal ⟨2, ![m, n]⟩ .f32) (w : FVec Ideal ⟨2, ![n, p]⟩ .f32) (b : FVec Ideal ⟨1, ![p]⟩ .f32)
    (hd : (⟨1, ![p]⟩ : Shape).BroadcastsInDim ⟨2, ![1, p]⟩ ![1])
    (hbc : (⟨2, ![1, p]⟩ : Shape).BroadcastsInDim ⟨2, ![m, p]⟩ ![0, 1])
    (hz : (⟨0, ![]⟩ : Shape).BroadcastsInDim ⟨2, ![m, p]⟩ ![]) (a : Fin m) (j : Fin p) :
    maximumf (addf (Host.dotGeneral d none x w) (broadcastInDim ⟨2, ![m, p]⟩ ![0, 1] hbc (broadcastInDim ⟨2, ![1, p]⟩ ![1] hd b)))
        (broadcastInDim ⟨2, ![m, p]⟩ ![] hz (constant (F := Ideal) ⟨0, ![]⟩ .f32 0x00000000#32)) (ix2 a j)
      = max ((∑ k : Fin n, x (ix2 a k) * w (ix2 k j)) + b (ix1 j)) 0 := by
  refine (maximumf_apply _ _ (ix2 a j)).trans ?_
  refine congrArg₂ max (lin_apply d hr hs hl0 hl1 hr0 hr1 x w b hd hbc a j) ?_
  rw [scalar_apply]
  exact Ideal.ofBits_zero_f32

end Cert.LibDenseRef

end
-- ==== Proof.Consts.lean ====
/-
  The float constants the two programs spell, as extended reals.

  Four bit patterns occur: +0.0, 1.0, 1024.0 and 2^-5. The kernel multiplies the scores by the literal 2^-5; the
  reference divides 1 by the square root of 1024. Since 1024 = 32^2, that quotient is 1/32 = 2^-5: the two scales are
  one extended real (scale_eq).
-/
import Idealize.ShloMosaic.PureOps.Ideal

noncomputable section

namespace Cert.Consts

open Idealize.ShloMosaic

/-- +0.0 denotes 0. -/
theorem ofBits_zero : Ideal.ofBits .f32 0x00000000#32 = 0 := by
  simp [Ideal.ofBits, Ideal.ieee]

/-- 1.0 denotes 1. -/
theorem ofBits_one : Ideal.ofBits .f32 0x3F800000#32 = 1 := by
  simp [Ideal.ofBits, Ideal.ieee, -EReal.coe_mul]; norm_num

/-- 1024.0 denotes the real 1024. -/
theorem ofBits_1024 : Ideal.ofBits .f32 0x44800000#32 = ((1024 : ℝ) : EReal) := by
  simp [Ideal.ofBits, Ideal.ieee, -EReal.coe_mul]; norm_num

/-- 0.03125 denotes the real 1/32. -/
theorem ofBits_inv32 : Ideal.ofBits .f32 0x3D000000#32 = ((1 / 32 : ℝ) : EReal) := by
  simp [Ideal.ofBits, Ideal.ieee, -EReal.coe_mul]; norm_num

/-- 1 / sqrt 1024 is the literal 2^-5: the square root of 1024 = 32^2 is 32. -/
theorem scale_eq : Ideal.div (Ideal.ofBits .f32 0x3F800000#32) (Ideal.sqrt (Ideal.ofBits .f32 0x44800000#32))
    = Ideal.ofBits .f32 0x3D000000#32 := by
  have h : Real.sqrt 1024 = 32 := by
    rw [show (1024 : ℝ) = 32 ^ 2 by norm_num]; exact Real.sqrt_sq (by norm_num)
  rw [ofBits_one, ofBits_1024, ofBits_inv32, Ideal.sqrt_coe, if_neg (by norm_num), h,
    Ideal.div_coe (by norm_num : (32 : ℝ) ≠ 0), one_mul]

/-- The same with the numerator already read as 1. -/
theorem scale_one : Ideal.div 1 (Ideal.sqrt (Ideal.ofBits .f32 0x44800000#32)) = Ideal.ofBits .f32 0x3D000000#32 := by
  have h := scale_eq
  rwa [ofBits_one] at h

end Cert.Consts

end
-- ==== Proof.RefValue.lean ====
/-
  The reference computes the gated mix.

  Read one operation at a time, the reference's result at (r, c) is the sum over the 4096 rows j of
  1 / (1 + e^(-(S(r,j) · (1 / sqrt 1024)))) · V(j, c), with S(r,j) the inner product of row r of Q = q·Wq + bq and row j
  of K = x·Wk + bk (the transposed copy of K read back at swapped coordinates) and V = x·Wv + bv. That quotient is the
  logistic function of its argument by definition, and 1 / sqrt 1024 is the literal 2^-5; so this is the gated mix of
  the three projections, on every extended real.
-/
import proofs.«133280_j18837726560765_2_alg».proof.Proof.Gen.ReferenceIdeal.Read
import proofs.«133280_j18837726560765_2_alg».proof.Proof.LibDenseRef
import proofs.«133280_j18837726560765_2_alg».proof.Proof.Attn
import proofs.«133280_j18837726560765_2_alg».proof.Proof.Consts

noncomputable section

open scoped BigOperators

namespace Cert.ReferenceIdeal.RefValue

open Cert.ReferenceIdeal Cert.ReferenceIdeal.Gen Cert.ReferenceIdeal.Read Idealize.ShloMosaic Idealize.ShloMosaic.ValueIdx

/-- One host projection at entry (r, d). -/
theorem lin_ref (x : FVec Ideal S4096x1024 .f32) (w : FVec Ideal S1024x1024 .f32) (b : FVec Ideal S1024 .f32)
    (r : Fin 4096) (d : Fin 1024) :
    addf (Host.dotGeneral dot_S4096x1024_S1024x1024_S4096x1024_1_0_0_1_n_n none x w)
      (broadcastInDim S4096x1024 ![0, 1] bcast_S1x1024_S4096x1024_0_1 (broadcastInDim S1x1024 ![1] bcast_S1024_S1x1024_1 b)) (ix2 r d)
      = Cert.Attn.proj x w b r d :=
  Cert.LibDenseRef.lin_apply dot_S4096x1024_S1024x1024_S4096x1024_1_0_0_1_n_n rfl rfl lhs_main_v0_0 lhs_main_v0_1
    rhs_main_v0_0 rhs_main_v0_1 x w b bcast_S1024_S1x1024_1 bcast_S1x1024_S4096x1024_0_1 r d

/-- The three projections the reference forms. -/
theorem q_ref (x0 : FVec Ideal S4096x1024 .f32) (x2 : FVec Ideal S1024x1024 .f32) (x3 : FVec Ideal S1024 .f32)
    (r : Fin 4096) (d : Fin 1024) : val_main_v3 (F := Ideal) x0 x2 x3 (ix2 r d) = Cert.Attn.proj x0 x2 x3 r d :=
  lin_ref x0 x2 x3 r d
theorem k_ref (x1 : FVec Ideal S4096x1024 .f32) (x4 : FVec Ideal S1024x1024 .f32) (x5 : FVec Ideal S1024 .f32)
    (r : Fin 4096) (d : Fin 1024) : val_main_v7 (F := Ideal) x1 x4 x5 (ix2 r d) = Cert.Attn.proj x1 x4 x5 r d :=
  lin_ref x1 x4 x5 r d
theorem v_ref (x1 : FVec Ideal S4096x1024 .f32) (x6 : FVec Ideal S1024x1024 .f32) (x7 : FVec Ideal S1024 .f32)
    (r : Fin 4096) (d : Fin 1024) : val_main_v11 (F := Ideal) x1 x6 x7 (ix2 r d) = Cert.Attn.proj x1 x6 x7 r d :=
  lin_ref x1 x6 x7 r d

/-- The score of rows r and j: the inner product of row r of Q with row j of K. -/
theorem score_ref (x0 x1 : FVec Ideal S4096x1024 .f32) (x2 : FVec Ideal S1024x1024 .f32) (x3 : FVec Ideal S1024 .f32)
    (x4 : FVec Ideal S1024x1024 .f32) (x5 : FVec Ideal S1024 .f32) (r j : Fin 4096) :
    val_main_v15 (F := Ideal) x0 x1 x2 x3 x4 x5 (ix2 r j)
      = ∑ d : Fin 1024, Cert.Attn.proj x0 x2 x3 r d * Cert.Attn.proj x1 x4 x5 j d := by
  rw [val_main_v15_apply]
  refine Finset.sum_congr rfl fun d _ => ?_
  have el : lidx_main_v15 (ix2 r j) d = ix2 r d := funext fun a => Fin.ext (by
    match a with
    | ⟨0, _⟩ => rfl
    | ⟨1, _⟩ => rfl)
  have er : idx_main_v14 (ridx_main_v15 (ix2 r j) d) = ix2 j d := funext fun a => Fin.ext (by
    match a with
    | ⟨0, _⟩ => rfl
    | ⟨1, _⟩ => rfl)
  rw [val_main_v14_apply, el, er, q_ref, k_ref]

/-- The weight of row j for output row r. -/
theorem weight_ref (x0 x1 : FVec Ideal S4096x1024 .f32) (x2 : FVec Ideal S1024x1024 .f32) (x3 : FVec Ideal S1024 .f32)
    (x4 : FVec Ideal S1024x1024 .f32) (x5 : FVec Ideal S1024 .f32) (r j : Fin 4096) :
    val_main_v23 (F := Ideal) x0 x1 x2 x3 x4 x5 (ix2 r j)
      = Cert.Attn.weight (Cert.Attn.proj x0 x2 x3) (Cert.Attn.proj x1 x4 x5) r j := by
  rw [val_main_v23_apply, val_main_v22_apply, val_main_cst_2_apply, val_main_v21_apply, val_main_v20_apply,
    val_main_cst_1_apply, val_main_v19_apply, val_main_v18_apply, val_main_v17_apply, val_main_v16_apply,
    val_main_v13_apply, val_main_cst_0_apply, val_main_v12_apply, val_main_cst_apply, score_ref]
  simp only [Ideal.hostDivf_def, Ideal.addf_def, Ideal.hostUnary_exp_def, Ideal.hostNegf_def, Ideal.negf_def,
    Ideal.mulf_def, Ideal.hostUnary_sqrt_def, Ideal.ofBits_def, Cert.Consts.ofBits_one, Cert.Consts.scale_one]
  rfl

/-- The reference's result is the gated mix of the three projections of its arguments. -/
theorem result_eq (x0 x1 : FVec Ideal S4096x1024 .f32) (x2 : FVec Ideal S1024x1024 .f32) (x3 : FVec Ideal S1024 .f32)
    (x4 : FVec Ideal S1024x1024 .f32) (x5 : FVec Ideal S1024 .f32) (x6 : FVec Ideal S1024x1024 .f32) (x7 : FVec Ideal S1024 .f32) :
    val_main_v24 (F := Ideal) x0 x1 x2 x3 x4 x5 x6 x7 = Cert.Attn.result x0 x1 x2 x3 x4 x5 x6 x7 := by
  funext i
  obtain ⟨r, c, rfl⟩ : ∃ (r : Fin 4096) (c : Fin 1024), i = ix2 r c := ⟨i 0, i 1, eq_ix2 i⟩
  rw [val_main_v24_apply]
  show _ = ∑ j : Fin 4096, Cert.Attn.weight (Cert.Attn.proj x0 x2 x3) (Cert.Attn.proj x1 x4 x5) r j * Cert.Attn.proj x1 x6 x7 j c
  refine Finset.sum_congr rfl fun j _ => ?_
  have el : lidx_main_v24 (ix2 r c) j = ix2 r j := funext fun a => Fin.ext (by
    match a with
    | ⟨0, _⟩ => rfl
    | ⟨1, _⟩ => rfl)
  have er : ridx_main_v24 (ix2 r c) j = ix2 j c := funext fun a => Fin.ext (by
    match a with
    | ⟨0, _⟩ => rfl
    | ⟨1, _⟩ => rfl)
  rw [el, er, weight_ref, v_ref]

end Cert.ReferenceIdeal.RefValue

end
-- ==== Proof.lean ====
/-
  Sigmoid-gated attention without normalisation: three calls against one plain program.

  Both programs take q, x (4096 × 1024), three 1024 × 1024 weight tables and three bias vectors, form
      Q = q·Wq + bq,   K = x·Wk + bk,   V = x·Wv + bv,
  and return   out(r, c) = Σ_j σ((Σ_d Q(r,d)·K(j,d)) · s) · V(j, c)   over all 4096 rows j, with σ(t) = 1/(1 + e^(-t)).

  The kernel program makes Q in one call (four row blocks), K and V in a second (eight row blocks, the block of x
  shared), and the sum in a third over a 4 × 4 grid of query tiles and key tiles: the output block of a query tile is
  zeroed on key tile 0 and each key tile's weighted rows of V are added onto it, the block written back after the
  fourth. Its scale s is the literal 2^-5 and its σ the logistic operation. The reference multiplies by 1 / sqrt 1024
  and spells σ as the quotient; it sums over all rows at once.

  On the extended reals the two agree entry by entry, with no use of finiteness: a change of float format is the
  identity; a product into a zero accumulator is the plain sum; sqrt 1024 = 32, so 1 / sqrt 1024 = 1/32 = 2^-5; the
  logistic operation is that quotient by definition; and the four tile sums added in order onto 0 are the sum over
  all rows, by associativity and commutativity of + and 0 + t = t. Each program's frame is its run with the values
  dropped, and the idealised kernel is the printed kernel read on the extended reals (no rewrite was applied).
-/
import proofs.«133280_j18837726560765_2_alg».proof.Defs
import proofs.«133280_j18837726560765_2_alg».proof.Proof.Gen.Kernel
import proofs.«133280_j18837726560765_2_alg».proof.Proof.Gen.Kernel.Skeleton
import proofs.«133280_j18837726560765_2_alg».proof.Proof.Gen.Kernel.Launch
import proofs.«133280_j18837726560765_2_alg».proof.Proof.Gen.Kernel.Points
import proofs.«133280_j18837726560765_2_alg».proof.Proof.Gen.Kernel.Frame
import proofs.«133280_j18837726560765_2_alg».proof.Proof.Gen.KernelIdeal
import proofs.«133280_j18837726560765_2_alg».proof.Proof.Gen.KernelIdeal.Skeleton
import proofs.«133280_j18837726560765_2_alg».proof.Proof.Gen.KernelIdeal.Launch
import proofs.«133280_j18837726560765_2_alg».proof.Proof.Gen.KernelIdeal.Points
import proofs.«133280_j18837726560765_2_alg».proof.Proof.Gen.KernelIdeal.Frame
import proofs.«133280_j18837726560765_2_alg».proof.Proof.Gen.ReferenceIdeal
import proofs.«133280_j18837726560765_2_alg».proof.Proof.Gen.Pre_finite_inputs
import proofs.«133280_j18837726560765_2_alg».proof.Proof.Gen.ReferenceIdeal.Run
import proofs.«133280_j18837726560765_2_alg».proof.Proof.Gen.ReferenceIdeal.Read
import proofs.«133280_j18837726560765_2_alg».proof.Proof.KRun
import proofs.«133280_j18837726560765_2_alg».proof.Proof.KValue
import proofs.«133280_j18837726560765_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel program runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the eight arguments both programs end with the gated mix of the three projections of
    those arguments in their result buffers. -/
theorem algebraic : Cert.algebraic_KernelIdeal_ReferenceIdeal := by
  intro m ρ m' ρ' _ hagree
  refine ⟨fun c => Cert.KernelIdeal.Value.result m c, ?_, ?_⟩
  · exact (θ_run Cert.KernelIdeal.defs _ _).mono
      (fun _ h c => ⟨(h c).1.trans (Cert.KernelIdeal.Value.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v24_eq, Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
